-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x128 .f32) (main_arg1 : IVec S2x524288 32) (main_arg2 : FVec F S128x128 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x128 : Shape := ⟨2, ![16384, 128]⟩
abbrev S2x524288 : Shape := ⟨2, ![2, 524288]⟩
abbrev S128x128 : Shape := ⟨2, ![128, 128]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1024x4096 : Shape := ⟨2, ![1024, 4096]⟩
abbrev S1024x128 : Shape := ⟨2, ![1024, 128]⟩
abbrev S1024x1 : Shape := ⟨2, ![1024, 1]⟩
abbrev S1024 : Shape := ⟨1, ![1024]⟩
abbrev S4096x128 : Shape := ⟨2, ![4096, 128]⟩

abbrev nBuf : Space → Nat
  | .hbm => 33
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128x128, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .bf16⟩
  | .hbm, ⟨9, _⟩ => ⟨S16384x16384, .bf16⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S_, .bf16⟩
  | .hbm, ⟨28, _⟩ => ⟨S524288, .bf16⟩
  | .hbm, ⟨29, _⟩ => ⟨S16384x16384, .bf16⟩
  | .hbm, ⟨30, _⟩ => ⟨S128x128, .f32⟩
  | .hbm, ⟨31, _⟩ => ⟨S128x128, .f32⟩
  | .hbm, ⟨32, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S16384x128, .f32⟩
  | .local _ .vmem, ⟨3, _⟩ => ⟨S128x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c4096_i32 : BitVec 32 := 4096#32
  let v13 : BitVec 32 := Scalar.muli arg1 c4096_i32
  v13
def k0_off1 (i : grid0.Coords) : Fin 2 → Nat :=
  let arg1 : BitVec 32 := BitVec.ofNat 32 (i 1).val
  let c4096_i32 : BitVec 32 := 4096#32
  let v13 : BitVec 32 := Scalar.muli arg1 c4096_i32
  let v14 : BitVec 32 := v13
  let v15 : Index := Scalar.indexCast v14
  let c0_6 : Index := 0#32
  ![v15.toNat, 0]
def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_12 : BitVec 32 := 0#32
  let v26 : BitVec 1 := Scalar.cmpi .ne v25 c0_i32_12
  v26

def k0_mult2 (i : grid0.Coords) : BitVec 32 :=
  let arg0 : BitVec 32 := BitVec.ofNat 32 (i 0).val
  let c1024_i32 : BitVec 32 := 1024#32
  let v34 : BitVec 32 := Scalar.muli arg0 c1024_i32
  v34
def k0_off2 (i : grid0.Coords) : Fin 2 → Nat :=
  let arg0 : BitVec 32 := BitVec.ofNat 32 (i 0).val
  let c1024_i32 : BitVec 32 := 1024#32
  let v34 : BitVec 32 := Scalar.muli arg0 c1024_i32
  let v35 : BitVec 32 := v34
  let v36 : Index := Scalar.indexCast v35
  let c0_20 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  reduces_S1024x4096_S1024 : S1024x4096.Reduces [1] S1024
  shapeCasts_S1024_S1024x1 : S1024.ShapeCasts S1024x1
  h_S4096x128 : 0 < S4096x128.numel
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S16384x16384_S524288x2_S524288_n_01_01_1_wf : ScatterDims.WF S16384x16384 S524288x2 S524288 [] [0, 1] [0, 1] 1
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x128.size a ≤ S16384x128.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .bf16 = 32 ∨ (Rect.block (s := S16384x16384) S1024x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v19) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S2x524288 : Shape := ⟨2, ![2, 524288]⟩
abbrev S128x128 : Shape := ⟨2, ![128, 128]⟩
abbrev S_ : Shape := ⟨0, ![]⟩
abbrev S16384x16384 : Shape := ⟨2, ![16384, 16384]⟩
abbrev S1x524288 : Shape := ⟨2, ![1, 524288]⟩
abbrev S524288 : Shape := ⟨1, ![524288]⟩
abbrev S524288x1 : Shape := ⟨2, ![524288, 1]⟩
abbrev S524288x2 : Shape := ⟨2, ![524288, 2]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S16384x16384, .f32⟩
  | .hbm, ⟨6, _⟩ => ⟨S1x524288, .i32⟩
  | .hbm, ⟨7, _⟩ => ⟨S524288, .i32⟩
  | .hbm, ⟨8, _⟩ => ⟨S1x524288, .i32⟩
  | .hbm, ⟨9, _⟩ => ⟨S524288, .i32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S_, .f32⟩
  | .hbm, ⟨28, _⟩ => ⟨S524288, .f32⟩
  | .hbm, ⟨29, _⟩ => ⟨S16384x16384, .f32⟩
  | .hbm, ⟨30, _⟩ => ⟨S_, .f32⟩
  | .hbm, ⟨31, _⟩ => ⟨S16384, .f32⟩
  | .hbm, ⟨32, _⟩ => ⟨S16384x128, .f32⟩
  | .hbm, ⟨33, _⟩ => ⟨S16384x1, .f32⟩
  | .hbm, ⟨34, _⟩ => ⟨S16384x128, .f32⟩
  | .hbm, ⟨35, _⟩ => ⟨S16384x128, .f32⟩
  | .hbm, ⟨36, _⟩ => ⟨S128x128, .f32⟩
  | .hbm, ⟨37, _⟩ => ⟨S16384x128, .f32⟩
  | .hbm, ⟨38, _⟩ => ⟨S128x128, .f32⟩
  | .hbm, ⟨39, _⟩ => ⟨S16384x128, .f32⟩
  | .hbm, ⟨40, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  slices_S2x524288_S1x524288_1_0 : S2x524288.Slices ![1, 0] S1x524288
  shapeCasts_S1x524288_S524288 : S1x524288.ShapeCasts S524288
  slices_S2x524288_S1x524288_0_0 : S2x524288.Slices ![0, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  transposes_S128x128_S128x128_1_0 : S128x128.Transposes [1, 0] S128x128
  scatter_S16384x16384_S524288x2_S524288_n_01_01_1_wf : ScatterDims.WF S16384x16384 S524288x2 S524288 [] [0, 1] [0, 1] 1
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  The degree-normalised graph convolution as one function of its argument arrays, on the extended reals, and the
  one law of sums that a column-blocked evaluation of it needs.

  For an adjacency matrix `a` (rows = destination nodes, columns = source nodes), node features `x` and two weight
  matrices `w`, `b` (both applied transposed), the value at node `r`, output feature `o` is

      Σ_f ( (Σ_j a r j · x j f) / (Σ_j a r j) ) · w o f   +   Σ_f x r f · b o f .

  The inner sums run over all 16384 source nodes. A blocked evaluation takes them as four partial sums over blocks of
  4096 consecutive source nodes; addition on the extended reals is commutative and associative, so the four partial
  sums add up to the whole sum (`sum_blocks`), with no finiteness needed.
-/
import Idealize.ShloMosaic.PureOps.Ideal
import Idealize.ShloMosaic.Lib.ValueIdx

noncomputable section

namespace GraphConv

open Idealize.ShloMosaic Idealize.ShloMosaic.ValueIdx
open scoped BigOperators

/-- An adjacency matrix over 16384 nodes. -/
abbrev Adj := (⟨2, ![16384, 16384]⟩ : Shape).Idx → EReal
/-- Node features, 128 per node. -/
abbrev Feat := (⟨2, ![16384, 128]⟩ : Shape).Idx → EReal
/-- A 128 × 128 weight matrix. -/
abbrev Wgt := (⟨2, ![128, 128]⟩ : Shape).Idx → EReal

/-- The sum of the features of node `r`'s in-neighbours, feature `f`. -/
def nbrSum (a : Adj) (x : Feat) (r : Fin 16384) (f : Fin 128) : EReal := ∑ j : Fin 16384, a (ix2 r j) * x (ix2 j f)

/-- The in-degree of node `r`. -/
def degree (a : Adj) (r : Fin 16384) : EReal := ∑ j : Fin 16384, a (ix2 r j)

/-- The convolution at node `r`, output feature `o`. -/
def convAt (a : Adj) (x : Feat) (w b : Wgt) (r : Fin 16384) (o : Fin 128) : EReal :=
  (∑ f : Fin 128, Ideal.div (nbrSum a x r f) (degree a r) * w (ix2 o f)) + ∑ f : Fin 128, x (ix2 r f) * b (ix2 o f)

/-- The convolution as a whole array. -/
def conv (a : Adj) (x : Feat) (w b : Wgt) : Feat := fun i => convAt a x w b ⟨(i 0).val, (i 0).isLt⟩ ⟨(i 1).val, (i 1).isLt⟩

/-- Column `4096·s + j` as the pair (block `s`, column `j` inside the block). -/
def blockEquiv : Fin 4 × Fin 4096 ≃ Fin 16384 := finProdFinEquiv.trans (finCongr (by norm_num))

theorem blockEquiv_val (p : Fin 4 × Fin 4096) : (blockEquiv p).val = p.2.val + 4096 * p.1.val := rfl

/-- A sum over 16384 columns is the sum, over the four blocks of 4096 consecutive columns, of the blocks' sums. The
    blocks' terms are given as a function `h` of a natural block number, asked to be right on the four blocks only. -/
theorem sum_blocks {M : Type*} [AddCommMonoid M] (g : Fin 16384 → M) (h : ℕ → Fin 4096 → M)
    (hh : ∀ (s : ℕ) (hs : s < 4) (j : Fin 4096), h s j = g ⟨4096 * s + j.val, by have := j.isLt; omega⟩) :
    ∑ j : Fin 16384, g j = ∑ s ∈ Finset.range 4, ∑ j : Fin 4096, h s j := by
  rw [Finset.sum_range, ← Equiv.sum_comp blockEquiv g, Fintype.sum_prod_type]
  refine Finset.sum_congr rfl fun s _ => Finset.sum_congr rfl fun j _ => ?_
  rw [hh s.val s.isLt j]
  exact congrArg g (Fin.ext (by rw [blockEquiv_val]; show j.val + 4096 * s.val = 4096 * s.val + j.val; omega))

end GraphConv

end
-- ==== Proof.Adjacency.lean ====
/-
  The adjacency matrix both programs build from the edge list, and that they build the same one.

  Each program scatters the value one into a 16384 × 16384 array of zeros at the positions (destination, source) of
  the edge list's columns, a negative node number first wrapped around by adding 16384. The kernel's array holds
  16-bit floats and the reference's 32-bit floats; on the extended reals both zeros denote 0 and both ones denote 1,
  and the scatter itself only moves values, so the two arrays are one function of the edge list.
-/
import proofs.«181237_j39032662786123_2_alg».proof.Proof.Gen.KernelIdeal.Frame
import proofs.«181237_j39032662786123_2_alg».proof.Proof.Gen.ReferenceIdeal.Read
import Idealize.ShloMosaic.Lib.Pipeline.Value
import Idealize.ShloMosaic.Lib.StableHlo.Run
import Idealize.ShloMosaic.PureOps.IdealRules
import Idealize.ShloMosaic.Lib.Tactic

set_option maxRecDepth 16384

noncomputable section

open Idealize.ShloMosaic Idealize.ShloMosaic.TcCoe Idealize.SL.Sem Idealize.ShloMosaic.Tactic Idealize.ShloMosaic.StableHlo

namespace Cert.KernelIdeal.Adjacency

open Cert.KernelIdeal Cert.KernelIdeal.Gen

variable {F : FTy → Type} [FloatOps F]

/-- The scatter positions: row `e` is (destination of edge `e`, source of edge `e`), negative numbers wrapped. -/
def edgePairs (x1 : (⟨S2x524288, .i32⟩ : BufTy).Contents (Elt F)) : (⟨S524288x2, .i32⟩ : BufTy).Contents (Elt F) :=
  concatenate S524288x2 1 [⟨S524288x1, (broadcastInDim S524288x1 ![0] bcast_S524288_S524288x1_0 (select (cmpi .slt (shapeCast _ (extractStridedSlice S1x524288 ![1, 0] x1 slices_S2x524288_S1x524288_1_0) shapeCasts_S1x524288_S524288) (broadcastInDim S524288 ![] bcast_S_S524288 (constantI S_ 32 0#32))) (addi (shapeCast _ (extractStridedSlice S1x524288 ![1, 0] x1 slices_S2x524288_S1x524288_1_0) shapeCasts_S1x524288_S524288) (broadcastInDim S524288 ![] bcast_S_S524288 (constantI S_ 32 16384#32))) (shapeCast _ (extractStridedSlice S1x524288 ![1, 0] x1 slices_S2x524288_S1x524288_1_0) shapeCasts_S1x524288_S524288)))⟩, ⟨S524288x1, (broadcastInDim S524288x1 ![0] bcast_S524288_S524288x1_0 (select (cmpi .slt (shapeCast _ (extractStridedSlice S1x524288 ![0, 0] x1 slices_S2x524288_S1x524288_0_0) shapeCasts_S1x524288_S524288) (broadcastInDim S524288 ![] bcast_S_S524288 (constantI S_ 32 0#32))) (addi (shapeCast _ (extractStridedSlice S1x524288 ![0, 0] x1 slices_S2x524288_S1x524288_0_0) shapeCasts_S1x524288_S524288) (broadcastInDim S524288 ![] bcast_S_S524288 (constantI S_ 32 16384#32))) (shapeCast _ (extractStridedSlice S1x524288 ![0, 0] x1 slices_S2x524288_S1x524288_0_0) shapeCasts_S1x524288_S524288)))⟩] concatenates_S524288x1_S524288x1_S524288x2_d1

/-- The kernel's adjacency matrix: ones scattered into zeros at the edge positions. -/
def adj (x1 : (⟨S2x524288, .i32⟩ : BufTy).Contents (Elt F)) : (⟨S16384x16384, .bf16⟩ : BufTy).Contents (Elt F) :=
  Host.scatter scatter_S16384x16384_S524288x2_S524288_n_01_01_1 (fun _ b => b)
    (broadcastInDim S16384x16384 ![] bcast_S_S16384x16384 (constant S_ .bf16 0x0000#16)) (edgePairs (F := F) x1)
    (broadcastInDim S524288 ![] bcast_S_S524288 (constant S_ .bf16 0x3F80#16))

set_option maxHeartbeats 2000000 in
/-- The array the region's first window is cut from is that matrix of the launch-time edge list. -/
theorem V_adj (m : (ℓ : Loc nD τ sig) → Buf (Elt F) ℓ) (c : Dev nD) :
    V m c main_v19 = adj (F := F) (m ((c : Thread nD τ).loc main_arg1)) := by
  dsimp only [V, hostOps0]
  after_results
  unfold adj edgePairs
  rfl

/-- A scatter is a function of its four operands. -/
theorem scatter_congr {α : Type} {s si u : Shape} {w : Nat} (d d' : ScatterDims s si u) (f : α → α → α)
    {x x' : s.Idx → α} {idx idx' : IVec si w} {upd upd' : u.Idx → α}
    (hd : d = d') (hx : x = x') (hi : idx = idx') (hu : upd = upd') :
    Host.scatter d f x idx upd = Host.scatter d' f x' idx' upd' := by
  subst hd hx hi hu; rfl

/-- On the extended reals the kernel's adjacency matrix is the reference's: the same scatter positions, zeros for
    zeros and ones for ones. -/
theorem adj_eq_ref (x1 : (⟨S2x524288, .i32⟩ : BufTy).Contents (Elt Ideal)) :
    (adj (F := Ideal) x1 : S16384x16384.Idx → EReal) = Cert.ReferenceIdeal.Read.val_main_v19 (F := Ideal) x1 := by
  unfold adj Cert.ReferenceIdeal.Read.val_main_v19
  refine scatter_congr _ _ _ rfl ?_ rfl ?_
  · funext j
    refine (broadcastInDim_apply _ bcast_S_S16384x16384 _ j (fun a => a.elim0) (fun a => a.elim0)).trans ?_
    rw [Cert.ReferenceIdeal.Read.val_main_v0_apply, Cert.ReferenceIdeal.Read.val_main_cst_apply]
    exact (IdealRules.sign_bit.ideal_zero .bf16).trans Ideal.ofBits_zero_f32.symm
  · funext j
    refine (broadcastInDim_apply _ bcast_S_S524288 _ j (fun a => a.elim0) (fun a => a.elim0)).trans ?_
    rw [Cert.ReferenceIdeal.Read.val_main_v18_apply, Cert.ReferenceIdeal.Read.val_main_cst_3_apply]
    exact (IdealRules.sign_bit.ideal_onePat .bf16).trans (IdealRules.sign_bit.ideal_onePat .f32).symm

end Cert.KernelIdeal.Adjacency

end
-- ==== Proof.RefValue.lean ====
/-
  The reference computes the convolution.

  Read one operation at a time, the reference's result at (r, o) is

      Σ_f ( (Σ_j A r j · x j f) / (0 + Σ_j A r j) ) · W o f  +  Σ_f x r f · B o f

  with A the adjacency matrix it scattered, the two transposes read back as W o f and B o f: the convolution of
  Spec.lean, the zero the degree sum starts from dropped.
-/
import proofs.«181237_j39032662786123_2_alg».proof.Proof.Gen.ReferenceIdeal.Read
import proofs.«181237_j39032662786123_2_alg».proof.Proof.Spec

set_option maxRecDepth 16384

noncomputable section

open Idealize.ShloMosaic Idealize.ShloMosaic.ValueIdx
open scoped BigOperators

namespace Cert.ReferenceIdeal.RefValue

open Cert.ReferenceIdeal Cert.ReferenceIdeal.Read

/-- The reference's last stage, as a function of its four arguments, is the convolution over the adjacency matrix
    its scatter built. -/
theorem result_eq_conv (x0 : (⟨S16384x128, .f32⟩ : BufTy).Contents (Elt Ideal)) (x1 : (⟨S2x524288, .i32⟩ : BufTy).Contents (Elt Ideal))
    (x2 x3 : (⟨S128x128, .f32⟩ : BufTy).Contents (Elt Ideal)) :
    val_main_v29 (F := Ideal) x0 x1 x2 x3 = GraphConv.conv (val_main_v19 (F := Ideal) x1) x0 x2 x3 := by
  funext i
  have e1 : ∀ (k : Fin 128) (k' : Fin 16384), lidx_main_v21 (lidx_main_v26 i k) k' = ix2 ⟨(i 0).val, (i 0).isLt⟩ k' :=
    fun k k' => funext fun a => Fin.ext (by match a with | ⟨0, _⟩ => rfl | ⟨1, _⟩ => rfl)
  have e2 : ∀ (k : Fin 128) (k' : Fin 16384), ridx_main_v21 (lidx_main_v26 i k) k' = ix2 k' k :=
    fun k k' => funext fun a => Fin.ext (by match a with | ⟨0, _⟩ => rfl | ⟨1, _⟩ => rfl)
  have e3 : ∀ (k : Fin 128) (k' : Fin 16384), idx_main_v20 (idx_main_v22 (idx_main_v23 (lidx_main_v26 i k))) k' = ix2 ⟨(i 0).val, (i 0).isLt⟩ k' :=
    fun k k' => funext fun a => Fin.ext (by match a with | ⟨0, _⟩ => rfl | ⟨1, _⟩ => rfl)
  have e4 : ∀ k : Fin 128, idx_main_v25 (ridx_main_v26 i k) = ix2 ⟨(i 1).val, (i 1).isLt⟩ k :=
    fun k => funext fun a => Fin.ext (by match a with | ⟨0, _⟩ => rfl | ⟨1, _⟩ => rfl)
  have e5 : ∀ k : Fin 128, lidx_main_v28 i k = ix2 ⟨(i 0).val, (i 0).isLt⟩ k :=
    fun k => funext fun a => Fin.ext (by match a with | ⟨0, _⟩ => rfl | ⟨1, _⟩ => rfl)
  have e6 : ∀ k : Fin 128, idx_main_v27 (ridx_main_v28 i k) = ix2 ⟨(i 1).val, (i 1).isLt⟩ k :=
    fun k => funext fun a => Fin.ext (by match a with | ⟨0, _⟩ => rfl | ⟨1, _⟩ => rfl)
  rw [val_main_v29_apply, val_main_v26_apply, val_main_v28_apply]
  simp only [val_main_v24_apply, val_main_v21_apply, val_main_v23_apply, val_main_v22_apply, val_main_v20_apply,
    val_main_cst_4_apply, val_main_v25_apply, val_main_v27_apply, e1, e2, e3, e4, e5, e6,
    Ideal.addf_def, Ideal.hostDivf_def, Ideal.ofBits_def, Ideal.ofBits_zero_f32, zero_add]
  rfl

end Cert.ReferenceIdeal.RefValue

end
-- ==== Proof.Pieces.lean ====
/-
  What one grid point's body leaves in the two accumulators and in the output block, as values.

  The body keeps two running quantities per block of 1024 destination nodes: the partial neighbour sums
  (a [1024, 128] array) and the partial in-degrees (a [1024, 1] column). At a point it adds to each the contribution of
  one block of 4096 source nodes; at the first point of a row block both start from zero, and at the last point the
  output block is computed from the two completed quantities. This module reads, case by case, what the body's stores
  leave, as the body's own arithmetic terms applied to the point's input blocks and to what the point before left:

    first point      partial sums := step (zero),            degrees := degStep (zero)
    middle points    partial sums := step (previous),        degrees := degStep (previous)
    last point       the same two steps, and the output block := epilogue of the two stepped quantities.

  Everything here holds at every float instance.
-/
import proofs.«181237_j39032662786123_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 4096 feature rows of the source block the point contracts over, cut from the whole feature array. -/
abbrev srcRows (i : grid0.Coords) (x1 : Vec F S16384x128 .f32) : Vec F S4096x128 .f32 :=
  View.ld x1 (Rect.unit (k0_off1 i) ![4096, 128] (k0_off1_inb i))

/-- The 1024 feature rows of the destination block itself, cut from the whole feature array (last point only). -/
abbrev dstRows (i : grid0.Coords) (h : cond0_1 i) (x1 : Vec F S16384x128 .f32) : Vec F S1024x128 .f32 :=
  View.ld x1 (Rect.unit (k0_off2 i) ![1024, 128] (k0_off2_inb i h))

/-- Middle points: the partial neighbour sums become the previous ones plus this source block's product. -/
theorem acc_B (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : ¬cond0_0 i) (hc1 : ¬cond0_1 i) (x0 : Vec F S1024x4096 .bf16) (x1 : Vec F S16384x128 .f32) (x2 : Vec F S128x128 .f32) (x3 : Vec F S128x128 .f32) (xs0 : Vec F S1024x128 .f32) (xs1 : Vec F S1024x1 .f32) :
    sout0_B_0 c i arg2 harg2 arg3 harg3 arg4 harg4 arg5 harg5 arg6 harg6 arg7 harg7 arg8 harg8 hc0 hc1 x0 x1 x2 x3 xs0 xs1 = k0_pay5 x0 (srcRows i x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg2.read_unread, harg3.read_unread, harg7.read_unread, View.ld_unit_zero (S := S1024x4096) hz, View.ld_unit_zero (S := S1024x128) hz]

/-- Middle points: the partial degrees become the previous ones plus this source block's row sums. -/
theorem deg_B (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : ¬cond0_0 i) (hc1 : ¬cond0_1 i) (x0 : Vec F S1024x4096 .bf16) (x1 : Vec F S16384x128 .f32) (x2 : Vec F S128x128 .f32) (x3 : Vec F S128x128 .f32) (xs0 : Vec F S1024x128 .f32) (xs1 : Vec F S1024x1 .f32) :
    sout0_B_1 c i arg2 harg2 arg3 harg3 arg4 harg4 arg5 harg5 arg6 harg6 arg7 harg7 arg8 harg8 hc0 hc1 x0 x1 x2 x3 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg2.read_unread, harg8.read_unread, View.ld_unit_zero (S := S1024x4096) hz, View.ld_unit_zero (S := S1024x1) hz]

/-- Last point: the partial neighbour sums step as at a middle point. -/
theorem acc_C (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : ¬cond0_0 i) (hc1 : cond0_1 i) (x0 : Vec F S1024x4096 .bf16) (x1 : Vec F S16384x128 .f32) (x2 : Vec F S128x128 .f32) (x3 : Vec F S128x128 .f32) (xs0 : Vec F S1024x128 .f32) (xs1 : Vec F S1024x1 .f32) :
    sout0_C_0 c i arg2 harg2 arg3 harg3 arg4 harg4 arg5 harg5 arg6 harg6 arg7 harg7 arg8 harg8 hc0 hc1 x0 x1 x2 x3 xs0 xs1 = k0_pay5 x0 (srcRows i x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg7.read_unread, View.ld_unit_zero (S := S1024x4096) hz, View.ld_unit_zero (S := S1024x128) hz]
  try rfl

/-- Last point: the partial degrees step as at a middle point. -/
theorem deg_C (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : ¬cond0_0 i) (hc1 : cond0_1 i) (x0 : Vec F S1024x4096 .bf16) (x1 : Vec F S16384x128 .f32) (x2 : Vec F S128x128 .f32) (x3 : Vec F S128x128 .f32) (xs0 : Vec F S1024x128 .f32) (xs1 : Vec F S1024x1 .f32) :
    sout0_C_1 c i arg2 harg2 arg3 harg3 arg4 harg4 arg5 harg5 arg6 harg6 arg7 harg7 arg8 harg8 hc0 hc1 x0 x1 x2 x3 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg8.read_unread, View.ld_unit_zero (S := S1024x4096) hz, View.ld_unit_zero (S := S1024x1) hz]
  try rfl

/-- First point: the partial neighbour sums are the step from the zero block (stored, then read back). -/
theorem acc_A (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : cond0_0 i) (hc1 : ¬cond0_1 i) (x0 : Vec F S1024x4096 .bf16) (x1 : Vec F S16384x128 .f32) (x2 : Vec F S128x128 .f32) (x3 : Vec F S128x128 .f32) :
    sout0_A_0 c i arg2 harg2 arg3 harg3 arg4 harg4 arg5 harg5 arg6 harg6 arg7 harg7 arg8 harg8 hc0 hc1 x0 x1 x2 x3 = k0_pay5 x0 (srcRows i x1) k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x4096) hz]
  rfl

/-- First point: the partial degrees are the step from the zero column (stored, then read back). -/
theorem deg_A (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : cond0_0 i) (hc1 : ¬cond0_1 i) (x0 : Vec F S1024x4096 .bf16) (x1 : Vec F S16384x128 .f32) (x2 : Vec F S128x128 .f32) (x3 : Vec F S128x128 .f32) :
    sout0_A_1 c i arg2 harg2 arg3 harg3 arg4 harg4 arg5 harg5 arg6 harg6 arg7 harg7 arg8 harg8 hc0 hc1 x0 x1 x2 x3 = k0_pay4 x0 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, View.ld_unit_zero (S := S1024x4096) hz]

/-- Last point: the output block is the epilogue of the two quantities AFTER this point's steps (each read back from
    its accumulator after the step's store), the two weight matrices and the destination block's own feature rows. -/
theorem out_C (c : Dev nD) (i : grid0.Coords) (arg2 : Memref sig .tc .vmem S1024x4096 .bf16) (harg2 : arg2.IsWhole) (arg3 : Memref sig .tc .vmem S16384x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1 .f32) (harg8 : arg8.IsWhole) (hc0 : ¬cond0_0 i) (hc1 : cond0_1 i) (x0 : Vec F S1024x4096 .bf16) (x1 : Vec F S16384x128 .f32) (x2 : Vec F S128x128 .f32) (x3 : Vec F S128x128 .f32) (xs0 : Vec F S1024x128 .f32) (xs1 : Vec F S1024x1 .f32) :
    out0_C_4 c i arg2 harg2 arg3 harg3 arg4 harg4 arg5 harg5 arg6 harg6 arg7 harg7 arg8 harg8 hc0 hc1 x0 x1 x2 x3 xs0 xs1
      = k0_pay6 (k0_pay5 x0 (srcRows i x1) xs0) (k0_pay4 x0 xs1) x2 (dstRows i hc1 x1) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S1024x128) _ hz, View.readCov_unit_zero (S := S1024x1) _ hz]
  simp only [View.readAt_eq_ld, harg2.read_unread, harg3.read_unread, harg4.read_unread, harg5.read_unread, harg7.read_unread, harg8.read_unread,
    View.ld_unit_zero (S := S1024x4096) hz, View.ld_unit_zero (S := S1024x128) hz, View.ld_unit_zero (S := S1024x1) hz, View.ld_unit_zero (S := S128x128) hz]
  rfl

end Cert.KernelIdeal.Pieces

end
-- ==== Proof.Steps.lean ====
/-
  The body's three arithmetic terms read at one entry, on the extended reals.

  With the adjacency block `a` (1024 destination rows × 4096 source columns), the source block's feature rows `xk`
  (4096 × 128), running partial sums `acc` (1024 × 128) and running degrees `d` (a 1024 × 1 column):

    step        (acc, a, xk)  at (r, f)  =  acc r f + Σ_j a r j · xk j f        a matrix product into a zero block, added
    degree step (d, a)        at (r, 0)  =  d r 0 + Σ_j a r j                   a row sum, kept as a column, added
    epilogue    at (r, o)  =  Σ_f (acc r f / d r 0) · wt f o  +  Σ_f xi r f · bt f o

  A change of float format is the identity on the extended reals, so the 16-bit casts in the step disappear.
-/
import proofs.«181237_j39032662786123_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx
open scoped BigOperators

namespace Cert.KernelIdeal.Steps

open Cert.KernelIdeal Cert.KernelIdeal.Gen

/-- The block product's dimension numbers: rows × 4096 against 4096 × columns. -/
abbrev dA := dot_S1024x4096_S4096x128_S1024x128_1_0_0_1_n_n
/-- The two epilogue products' dimension numbers: rows × 128 against 128 × columns. -/
abbrev dW := dot_S1024x128_S128x128_S1024x128_1_0_0_1_n_n

/-- The zero block the first point stores is 0 everywhere. -/
theorem zeroBlock_apply (y : S1024x128.Idx) : k0_pay1 (F := Ideal) y = 0 := by
  unfold k0_pay1
  rw [shapeCast_self]
  exact Ideal.ofBits_zero_f32

/-- The zero column the first point stores is 0 everywhere. -/
theorem zeroCol_apply (y : S1024x1.Idx) : k0_pay2 (F := Ideal) y = 0 := by
  unfold k0_pay2
  rw [shapeCast_self]
  exact Ideal.ofBits_zero_f32

/-! ## The operand indices of the two products -/

theorem lhsA (i : S1024x128.Idx) (k : Fin 4096) :
    dA.lhsIdx i ((contrEquiv1 dA 4096 rfl rfl).symm k) = ix2 ⟨(i 0).val, (i 0).isLt⟩ k := funext fun a => Fin.ext (by
  have hk := contrEquiv1_symm_val dA 4096 rfl rfl k
  match a with
  | ⟨0, _⟩ =>
    show (dA.lhsIdx i _ 0).val = (i 0).val
    unfold DotDims.lhsIdx
    rw [dif_neg (show ¬(0 : Fin S1024x4096.rank) ∈ dA.lhsBatch by decide), dif_pos (show (0 : Fin S1024x4096.rank) ∈ dA.lhsNonContracting by decide)]
    rfl
  | ⟨1, _⟩ => exact (dA.lhsIdx_val_of_single rfl i _).trans hk)

theorem rhsA (i : S1024x128.Idx) (k : Fin 4096) :
    dA.rhsIdx i ((contrEquiv1 dA 4096 rfl rfl).symm k) = ix2 k ⟨(i 1).val, (i 1).isLt⟩ := funext fun a => Fin.ext (by
  have hk := contrEquiv1_symm_val dA 4096 rfl rfl k
  match a with
  | ⟨0, _⟩ => exact (dA.rhsIdx_val_of_single rfl i _).trans hk
  | ⟨1, _⟩ =>
    show (dA.rhsIdx i _ 1).val = (i 1).val
    unfold DotDims.rhsIdx
    rw [dif_neg (show ¬(1 : Fin S4096x128.rank) ∈ dA.rhsBatch by decide), dif_pos (show (1 : Fin S4096x128.rank) ∈ dA.rhsNonContracting by decide)]
    rfl)

theorem lhsW (i : S1024x128.Idx) (k : Fin 128) :
    dW.lhsIdx i ((contrEquiv1 dW 128 rfl rfl).symm k) = ix2 ⟨(i 0).val, (i 0).isLt⟩ k := funext fun a => Fin.ext (by
  have hk := contrEquiv1_symm_val dW 128 rfl rfl k
  match a with
  | ⟨0, _⟩ =>
    show (dW.lhsIdx i _ 0).val = (i 0).val
    unfold DotDims.lhsIdx
    rw [dif_neg (show ¬(0 : Fin S1024x128.rank) ∈ dW.lhsBatch by decide), dif_pos (show (0 : Fin S1024x128.rank) ∈ dW.lhsNonContracting by decide)]
    rfl
  | ⟨1, _⟩ => exact (dW.lhsIdx_val_of_single rfl i _).trans hk)

theorem rhsW (i : S1024x128.Idx) (k : Fin 128) :
    dW.rhsIdx i ((contrEquiv1 dW 128 rfl rfl).symm k) = ix2 k ⟨(i 1).val, (i 1).isLt⟩ := funext fun a => Fin.ext (by
  have hk := contrEquiv1_symm_val dW 128 rfl rfl k
  match a with
  | ⟨0, _⟩ => exact (dW.rhsIdx_val_of_single rfl i _).trans hk
  | ⟨1, _⟩ =>
    show (dW.rhsIdx i _ 1).val = (i 1).val
    unfold DotDims.rhsIdx
    rw [dif_neg (show ¬(1 : Fin S128x128.rank) ∈ dW.rhsBatch by decide), dif_pos (show (1 : Fin S128x128.rank) ∈ dW.rhsNonContracting by decide)]
    rfl)

/-- A block product into the zero block, at (r, f): the sum over the 4096 contracted columns. -/
theorem prodA_apply (a : FVec Ideal S1024x4096 .bf16) (xk : FVec Ideal S4096x128 .bf16) (r : Fin 1024) (f : Fin 128) :
    matmul dA none a xk (constant (F := Ideal) S1024x128 .f32 0x00000000#32) (ix2 r f) = ∑ j : Fin 4096, a (ix2 r j) * xk (ix2 j f) := by
  simp only [matmul]
  rw [Ideal.matmul_constant_zero_apply, ← Equiv.sum_comp (contrEquiv1 dA 4096 rfl rfl).symm]
  refine Finset.sum_congr rfl fun k _ => ?_
  rw [lhsA, rhsA]
  rfl

/-- An epilogue product into the zero block, at (r, o): the sum over the 128 contracted features. -/
theorem prodW_apply (l : FVec Ideal S1024x128 .f32) (w : FVec Ideal S128x128 .f32) (r : Fin 1024) (o : Fin 128) :
    matmul dW none l w (constant (F := Ideal) S1024x128 .f32 0x00000000#32) (ix2 r o) = ∑ f : Fin 128, l (ix2 r f) * w (ix2 f o) := by
  simp only [matmul]
  rw [Ideal.matmul_constant_zero_apply, ← Equiv.sum_comp (contrEquiv1 dW 128 rfl rfl).symm]
  refine Finset.sum_congr rfl fun k _ => ?_
  rw [lhsW, rhsW]
  rfl

/-- THE STEP at (r, f): the previous partial sum plus this source block's contribution. -/
theorem step_apply (a : Vec Ideal S1024x4096 .bf16) (xk : Vec Ideal S4096x128 .f32) (acc : Vec Ideal S1024x128 .f32) (r : Fin 1024) (f : Fin 128) :
    k0_pay5 a xk acc (ix2 r f) = acc (ix2 r f) + ∑ j : Fin 4096, a (ix2 r j) * xk (ix2 j f) := by
  unfold k0_pay5 k0_pay3
  rw [shapeCast_self, shapeCast_self]
  refine (addf_apply _ _ _).trans ?_
  refine congrArg (acc (ix2 r f) + ·) ?_
  exact prodA_apply a (truncf .bf16 xk bitsLt_bf16_f32) r f

/-- A column made from a vector of row values reads the vector at the row. -/
theorem column_apply (v : S1024.Idx → EReal) (h : S1024.ShapeCasts S1024x1) (r : Fin 1024) (z : Fin 1) :
    shapeCast S1024x1 v h (ix2 r z) = v (ix1 r) :=
  shapeCast_apply v h (ix2 r z) (ix1 r) (by
    rw [Shape.rowMajor_val_one, Shape.rowMajor_val_two]
    show r.val = r.val * 1 + z.val
    have := z.isLt; omega)

/-- A row sum over the 4096 columns of a block, at row r. -/
theorem rowSum_apply (src : FVec Ideal S1024x4096 .f32) (h : S1024x4096.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 4096, src (ix2 r j) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- THE DEGREE STEP at row r: the previous partial degree plus this source block's row sum. -/
theorem degStep_apply (a : Vec Ideal S1024x4096 .bf16) (d : Vec Ideal S1024x1 .f32) (r : Fin 1024) (z : Fin 1) :
    k0_pay4 a d (ix2 r z) = d (ix2 r z) + ∑ j : Fin 4096, a (ix2 r j) := by
  unfold k0_pay4 k0_pay3
  rw [shapeCast_self, shapeCast_self]
  refine (addf_apply _ _ _).trans ?_
  refine congrArg (d (ix2 r z) + ·) ?_
  refine (column_apply _ _ r z).trans ?_
  exact rowSum_apply _ _ _ _ r

/-- A column spread over 128 lanes reads the column at the row. -/
theorem spread_apply (v : S1024x1.Idx → EReal) (h : S1024x1.Broadcasts S1024x128) (r : Fin 1024) (f : Fin 128) :
    broadcastTo S1024x128 v h (ix2 r f) = v (ix2 r (0 : Fin 1)) :=
  broadcastTo_apply v h (ix2 r f) (ix2 r (0 : Fin 1)) (fun a => match a with
    | ⟨0, _⟩ => by show r.val = if (1024 : Nat) = 1 then 0 else r.val; rw [if_neg (by decide)]
    | ⟨1, _⟩ => by show 0 = if (1 : Nat) = 1 then 0 else f.val; rw [if_pos rfl])

/-- THE EPILOGUE at (r, o). -/
theorem epilogue_apply (acc : Vec Ideal S1024x128 .f32) (d : Vec Ideal S1024x1 .f32) (wt : Vec Ideal S128x128 .f32)
    (xi : Vec Ideal S1024x128 .f32) (bt : Vec Ideal S128x128 .f32) (r : Fin 1024) (o : Fin 128) :
    k0_pay6 acc d wt xi bt (ix2 r o)
      = (∑ f : Fin 128, Ideal.div (acc (ix2 r f)) (d (ix2 r (0 : Fin 1))) * wt (ix2 f o)) + ∑ f : Fin 128, xi (ix2 r f) * bt (ix2 f o) := by
  unfold k0_pay6
  rw [shapeCast_self, shapeCast_self]
  refine (addf_apply _ _ _).trans ?_
  rw [prodW_apply, prodW_apply]
  refine congrArg (· + _) (Finset.sum_congr rfl fun f _ => ?_)
  refine congrArg (· * _) ?_
  refine (divf_apply _ _ _).trans ?_
  rw [spread_apply]

end Cert.KernelIdeal.Steps

end
-- ==== Proof.Blocks.lean ====
/-
  The input blocks of a grid point, read at an entry of the arrays they are cut from.

  The grid has 16 × 4 points; point `t` works on destination rows 1024·(t / 4) … and, of the adjacency matrix, on
  source columns 4096·(t % 4) …:

    adjacency block of point t  at (r, j)   =  adjacency matrix at (1024·(t/4) + r, 4096·(t%4) + j)
    the feature window                       =  the whole feature array (one block, resident)
    the source rows the body cuts at t, at (j, f)       =  features at (4096·(t%4) + j, f)
    the destination rows the body cuts at t, at (r, f)  =  features at (1024·(t/4) + r, f)
    the two weight windows                   =  the transposed weight matrices (one block each)
    the output block of point t  at (r, o)  sits at  (1024·(t/4) + r, o) of the result array.

  Row and column numbers are written modulo 16384 so that they are indices without a side condition; inside the grid
  nothing wraps. Each window's block is first read out of an arbitrary array of the window's shape: which entry a
  block's entry is depends on the window and the point only, not on what the array holds.
-/
import proofs.«181237_j39032662786123_2_alg».proof.Proof.Pieces
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.Tactic Idealize.ShloMosaic.StableHlo
open Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- A node number as an index of a 16384-long axis. -/
def node (n : ℕ) : Fin 16384 := ⟨n % 16384, Nat.mod_lt _ (by norm_num)⟩

theorem node_val (n : ℕ) : (node n).val = n % 16384 := rfl

/-! ## Where a point sits -/

theorem coords_eq : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

theorem idxAdj : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)

theorem idxFeat : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idxWt : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idxBt : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idxOut : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-! ## A window's block at a point, cut from ANY array of the window's shape -/

/-- The adjacency window's block at point `t`, of any 16384 × 16384 array. -/
theorem adjWin_read (Z : (⟨S16384x16384, .bf16⟩ : BufTy).Contents (Elt F)) (t : Fin cfg0.N) (r : Fin 1024) (j : Fin 4096) :
    (((cfg0.win 0).blk t).view.read (Elt F) Z : Vec F S1024x4096 .bf16) (ix2 r j)
      = Z (ix2 (node (1024 * (t.val / 4) + r.val)) (node (4096 * (t.val % 4) + j.val))) := by
  have hN : t.val < 64 := lt_of_lt_of_eq t.isLt N_0
  rw [View.read_apply]
  show Z _ = Z _
  refine congrArg Z (funext fun a => Fin.ext ?_)
  match a with
  | ⟨0, _⟩ =>
    show win0_0.index t (0 : Fin 2) * 1024 + 1 * r.val = (1024 * (t.val / 4) + r.val) % 16384
    rw [(idxAdj t).1]; omega
  | ⟨1, _⟩ =>
    show win0_0.index t (1 : Fin 2) * 4096 + 1 * j.val = (4096 * (t.val % 4) + j.val) % 16384
    rw [(idxAdj t).2]; omega

/-- The feature window's one block is the whole array. -/
theorem featWin_read (Z : (⟨S16384x128, .f32⟩ : BufTy).Contents (Elt F)) (t : Fin cfg0.N) (p : Fin 16384) (f : Fin 128) :
    (((cfg0.win 1).blk t).view.read (Elt F) Z : Vec F S16384x128 .f32) (ix2 p f) = Z (ix2 p f) := by
  rw [View.read_apply]
  show Z _ = Z _
  refine congrArg Z (funext fun a => Fin.ext ?_)
  match a with
  | ⟨0, _⟩ =>
    show win0_1.index t (0 : Fin 2) * 16384 + 1 * p.val = p.val
    rw [(idxFeat t).1]; omega
  | ⟨1, _⟩ =>
    show win0_1.index t (1 : Fin 2) * 128 + 1 * f.val = f.val
    rw [(idxFeat t).2]; omega

/-- The first weight window's one block is the whole array. -/
theorem wtWin_read (Z : (⟨S128x128, .f32⟩ : BufTy).Contents (Elt F)) (t : Fin cfg0.N) (f o : Fin 128) :
    (((cfg0.win 2).blk t).view.read (Elt F) Z : Vec F S128x128 .f32) (ix2 f o) = Z (ix2 f o) := by
  rw [View.read_apply]
  show Z _ = Z _
  refine congrArg Z (funext fun a => Fin.ext ?_)
  match a with
  | ⟨0, _⟩ =>
    show win0_2.index t (0 : Fin 2) * 128 + 1 * f.val = f.val
    rw [(idxWt t).1]; omega
  | ⟨1, _⟩ =>
    show win0_2.index t (1 : Fin 2) * 128 + 1 * o.val = o.val
    rw [(idxWt t).2]; omega

/-- The second weight window's one block is the whole array. -/
theorem btWin_read (Z : (⟨S128x128, .f32⟩ : BufTy).Contents (Elt F)) (t : Fin cfg0.N) (f o : Fin 128) :
    (((cfg0.win 3).blk t).view.read (Elt F) Z : Vec F S128x128 .f32) (ix2 f o) = Z (ix2 f o) := by
  rw [View.read_apply]
  show Z _ = Z _
  refine congrArg Z (funext fun a => Fin.ext ?_)
  match a with
  | ⟨0, _⟩ =>
    show win0_3.index t (0 : Fin 2) * 128 + 1 * f.val = f.val
    rw [(idxBt t).1]; omega
  | ⟨1, _⟩ =>
    show win0_3.index t (1 : Fin 2) * 128 + 1 * o.val = o.val
    rw [(idxBt t).2]; omega

/-- The output window's block at point `t`, of any 16384 × 128 array. -/
theorem outWin_read (Z : (⟨S16384x128, .f32⟩ : BufTy).Contents (Elt F)) (t : Fin cfg0.N) (r : Fin 1024) (o : Fin 128) :
    (((cfg0.win 4).blk t).view.read (Elt F) Z : Vec F S1024x128 .f32) (ix2 r o) = Z (ix2 (node (1024 * (t.val / 4) + r.val)) o) := by
  have hN : t.val < 64 := lt_of_lt_of_eq t.isLt N_0
  rw [View.read_apply]
  show Z _ = Z _
  refine congrArg Z (funext fun a => Fin.ext ?_)
  match a with
  | ⟨0, _⟩ =>
    show win0_4.index t (0 : Fin 2) * 1024 + 1 * r.val = (1024 * (t.val / 4) + r.val) % 16384
    rw [(idxOut t).1]; omega
  | ⟨1, _⟩ =>
    show win0_4.index t (1 : Fin 2) * 128 + 1 * o.val = o.val
    rw [(idxOut t).2]; omega

/-! ## The blocks of the arrays the region finds -/

/-- The adjacency block of point `t`. -/
theorem adjBlock_apply (c : Dev nD) (t : Fin cfg0.N) (r : Fin 1024) (j : Fin 4096) :
    (iblk m c 0 t : Vec F S1024x4096 .bf16) (ix2 r j)
      = (V m c main_v19 : S16384x16384.Idx → F .bf16) (ix2 (node (1024 * (t.val / 4) + r.val)) (node (4096 * (t.val % 4) + j.val))) := by
  unfold iblk
  exact adjWin_read (V m c main_v19) t r j

/-- The feature window's one block is the feature array as launched. -/
theorem featBlock_apply (c : Dev nD) (t : Fin cfg0.N) (p : Fin 16384) (f : Fin 128) :
    (iblk m c 1 t : Vec F S16384x128 .f32) (ix2 p f) = (m ((c : Thread nD τ).loc main_arg0) : S16384x128.Idx → F .f32) (ix2 p f) := by
  unfold iblk
  exact (featWin_read (V m c main_arg0) t p f).trans (congrFun (V_main_arg0 m c) (ix2 p f))

/-- The source rows the body cuts from a feature array at point `t`. -/
theorem srcRows_apply (t : Fin cfg0.N) (x : Vec F S16384x128 .f32) (j : Fin 4096) (f : Fin 128) :
    srcRows (grid0.coords t) x (ix2 j f) = x (ix2 (node (4096 * (t.val % 4) + j.val)) f) := by
  have hN : t.val < 64 := lt_of_lt_of_eq t.isLt N_0
  show x _ = x _
  refine congrArg x (funext fun a => Fin.ext ?_)
  match a with
  | ⟨0, _⟩ =>
    show k0_off1 (grid0.coords t) 0 + 1 * j.val = (4096 * (t.val % 4) + j.val) % 16384
    rw [k0_off1_eq]
    show 4096 * ((grid0.coords t) 1).val + 1 * j.val = _
    rw [(coords_eq t).2]; omega
  | ⟨1, _⟩ =>
    show k0_off1 (grid0.coords t) 1 + 1 * f.val = f.val
    rw [k0_off1_eq]
    show 0 + 1 * f.val = f.val
    omega

/-- The destination rows the body cuts from a feature array at a last point `t`. -/
theorem dstRows_apply (t : Fin cfg0.N) (h : cond0_1 (grid0.coords t)) (x : Vec F S16384x128 .f32) (r : Fin 1024) (f : Fin 128) :
    dstRows (grid0.coords t) h x (ix2 r f) = x (ix2 (node (1024 * (t.val / 4) + r.val)) f) := by
  have hN : t.val < 64 := lt_of_lt_of_eq t.isLt N_0
  show x _ = x _
  refine congrArg x (funext fun a => Fin.ext ?_)
  match a with
  | ⟨0, _⟩ =>
    show k0_off2 (grid0.coords t) 0 + 1 * r.val = (1024 * (t.val / 4) + r.val) % 16384
    rw [k0_off2_eq]
    show 1024 * ((grid0.coords t) 0).val + 1 * r.val = _
    rw [(coords_eq t).1]; omega
  | ⟨1, _⟩ =>
    show k0_off2 (grid0.coords t) 1 + 1 * f.val = f.val
    rw [k0_off2_eq]
    show 0 + 1 * f.val = f.val
    omega

/-- The first weight window's array is the first weight matrix transposed (written before the region). -/
theorem V_wt (c : Dev nD) :
    (V m c main_v20 : S128x128.Idx → F .f32) = transpose S128x128 [1, 0] (m ((c : Thread nD τ).loc main_arg2)) transposes_S128x128_S128x128_1_0 := by
  dsimp only [V, hostOps0]
  after_results

/-- The second weight window's array is the second weight matrix transposed. -/
theorem V_bt (c : Dev nD) :
    (V m c main_v21 : S128x128.Idx → F .f32) = transpose S128x128 [1, 0] (m ((c : Thread nD τ).loc main_arg3)) transposes_S128x128_S128x128_1_0 := by
  dsimp only [V, hostOps0]
  after_results

/-- The first weight window's one block, at (f, o): the first weight matrix at (o, f). -/
theorem wtBlock_apply (c : Dev nD) (t : Fin cfg0.N) (f o : Fin 128) :
    (iblk m c 2 t : Vec F S128x128 .f32) (ix2 f o) = (m ((c : Thread nD τ).loc main_arg2) : S128x128.Idx → F .f32) (ix2 o f) := by
  unfold iblk
  refine (wtWin_read (V m c main_v20) t f o).trans ((congrFun (V_wt m c) (ix2 f o)).trans ?_)
  exact transpose_apply [1, 0] _ transposes_S128x128_S128x128_1_0 (ix2 f o) (ix2 o f) (fun b => match b with
    | ⟨0, _⟩ => rfl
    | ⟨1, _⟩ => rfl)

/-- The second weight window's one block, at (f, o): the second weight matrix at (o, f). -/
theorem btBlock_apply (c : Dev nD) (t : Fin cfg0.N) (f o : Fin 128) :
    (iblk m c 3 t : Vec F S128x128 .f32) (ix2 f o) = (m ((c : Thread nD τ).loc main_arg3) : S128x128.Idx → F .f32) (ix2 o f) := by
  unfold iblk
  refine (btWin_read (V m c main_v21) t f o).trans ((congrFun (V_bt m c) (ix2 f o)).trans ?_)
  exact transpose_apply [1, 0] _ transposes_S128x128_S128x128_1_0 (ix2 f o) (ix2 o f) (fun b => match b with
    | ⟨0, _⟩ => rfl
    | ⟨1, _⟩ => rfl)

end Cert.KernelIdeal.Blocks

end
-- ==== Proof.Sums.lean ====
/-
  The two running quantities after any grid point, and the output block at a row block's last point.

  Along the four points of one row block (destination rows 1024·q …) the partial neighbour sums and the partial
  degrees start from zero and gain, at point 4·q + s, the contribution of source columns 4096·s …:

      partial sums after point 4·q + k, at (r, f)  =  0 + Σ_{s ≤ k} Σ_j A (1024·q + r) (4096·s + j) · x (4096·s + j) f
      partial degrees after point 4·q + k, at r    =  0 + Σ_{s ≤ k} Σ_j A (1024·q + r) (4096·s + j)

  (a fold that adds is the sum of what it added). After the fourth point the four blocks of columns are all of them,
  so these are the whole neighbour sum and the whole in-degree of node 1024·q + r (Spec.lean's law of sums), and the
  output block the last point computes from them is the convolution at the row block's nodes.
-/
import proofs.«181237_j39032662786123_2_alg».proof.Proof.Gen.KernelIdeal.Value
import proofs.«181237_j39032662786123_2_alg».proof.Proof.Pieces
import proofs.«181237_j39032662786123_2_alg».proof.Proof.Steps
import proofs.«181237_j39032662786123_2_alg».proof.Proof.Blocks
import proofs.«181237_j39032662786123_2_alg».proof.Proof.Spec

set_option maxRecDepth 16384

noncomputable section

open Idealize.ShloMosaic Idealize.ShloMosaic.TcCoe Idealize.SL.Sem
open Idealize.ShloMosaic.ValueIdx
open scoped BigOperators

namespace Cert.KernelIdeal.Sums

open Cert.KernelIdeal Cert.KernelIdeal.Gen Cert.KernelIdeal.Value Cert.KernelIdeal.Pieces Cert.KernelIdeal.Steps Cert.KernelIdeal.Blocks

variable (m : (ℓ : Loc nD τ sig) → Buf (Elt Ideal) ℓ)

/-- The adjacency matrix the region finds. -/
abbrev A (c : Dev nD) : GraphConv.Adj := V m c main_v19
/-- The node features, as launched. -/
abbrev X (c : Dev nD) : GraphConv.Feat := m ((c : Thread nD τ).loc main_arg0)
/-- The two weight matrices, as launched. -/
abbrev W (c : Dev nD) : GraphConv.Wgt := m ((c : Thread nD τ).loc main_arg2)
abbrev B (c : Dev nD) : GraphConv.Wgt := m ((c : Thread nD τ).loc main_arg3)

/-- What point `n` adds to the partial neighbour sums, at an entry of the block. -/
def accTerm (c : Dev nD) (n : ℕ) (y : S1024x128.Idx) : EReal :=
  ∑ j : Fin 4096, A m c (ix2 (node (1024 * (n / 4) + (y 0).val)) (node (4096 * (n % 4) + j.val)))
    * X m c (ix2 (node (4096 * (n % 4) + j.val)) ⟨(y 1).val, (y 1).isLt⟩)

/-- What point `n` adds to the partial degrees, at a row of the block. -/
def degTerm (c : Dev nD) (n : ℕ) (y : S1024x1.Idx) : EReal :=
  ∑ j : Fin 4096, A m c (ix2 (node (1024 * (n / 4) + (y 0).val)) (node (4096 * (n % 4) + j.val)))

/-- The step at point `t`, at any entry: what was there plus the point's contribution. -/
theorem step_at (c : Dev nD) (t : Fin cfg0.N) (acc : Vec Ideal S1024x128 .f32) (i : S1024x128.Idx) :
    k0_pay5 (iblk m c 0 t) (srcRows (grid0.coords t) (iblk m c 1 t)) acc i = acc i + accTerm m c t.val i := by
  obtain ⟨r, f, rfl⟩ : ∃ (r : Fin 1024) (f : Fin 128), i = ix2 r f := ⟨i 0, i 1, eq_ix2 i⟩
  refine (step_apply (iblk m c 0 t) (srcRows (grid0.coords t) (iblk m c 1 t)) acc r f).trans ?_
  unfold accTerm
  refine congrArg (acc (ix2 r f) + ·) (Finset.sum_congr rfl fun j _ => ?_)
  exact congrArg₂ (· * ·) (adjBlock_apply m c t r j) ((srcRows_apply t (iblk m c 1 t) j f).trans (featBlock_apply m c t _ f))

/-- The degree step at point `t`, at any row. -/
theorem degStep_at (c : Dev nD) (t : Fin cfg0.N) (d : Vec Ideal S1024x1 .f32) (i : S1024x1.Idx) :
    k0_pay4 (iblk m c 0 t) d i = d i + degTerm m c t.val i := by
  obtain ⟨r, z, rfl⟩ : ∃ (r : Fin 1024) (z : Fin 1), i = ix2 r z := ⟨i 0, i 1, eq_ix2 i⟩
  refine (degStep_apply (iblk m c 0 t) d r z).trans ?_
  unfold degTerm
  refine congrArg (d (ix2 r z) + ·) (Finset.sum_congr rfl fun j _ => ?_)
  exact adjBlock_apply m c t r j

/-! ## One point's effect on each accumulator, first point and later points -/

theorem accAt_first (c : Dev nD) (n : ℕ) (h : n < cfg0.N) (h0 : n % 4 = 0) (acc : Vec Ideal S1024x128 .f32) (i : S1024x128.Idx) :
    scAt0_0 m c n h acc i = 0 + accTerm m c n i := by
  have h1 : ¬n % 4 = 3 := by omega
  unfold scAt0_0
  rw [dif_pos h0, dif_neg h1]
  refine (congrFun (acc_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
  refine (step_at m c (⟨n, h⟩ : Fin cfg0.N) (k0_pay1 (F := Ideal)) i).trans ?_
  rw [zeroBlock_apply]

theorem accAt_next (c : Dev nD) (n : ℕ) (h : n < cfg0.N) (h0 : ¬n % 4 = 0) (acc : Vec Ideal S1024x128 .f32) (i : S1024x128.Idx) :
    scAt0_0 m c n h acc i = acc i + accTerm m c n i := by
  unfold scAt0_0
  rw [dif_neg h0]
  by_cases h1 : n % 4 = 3
  · rw [dif_pos h1]
    refine (congrFun (acc_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc _) i).trans ?_
    exact step_at m c (⟨n, h⟩ : Fin cfg0.N) acc i
  · rw [dif_neg h1]
    refine (congrFun (acc_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc _) i).trans ?_
    exact step_at m c (⟨n, h⟩ : Fin cfg0.N) acc i

theorem degAt_first (c : Dev nD) (n : ℕ) (h : n < cfg0.N) (h0 : n % 4 = 0) (d : Vec Ideal S1024x1 .f32) (i : S1024x1.Idx) :
    scAt0_1 m c n h d i = 0 + degTerm m c n i := by
  have h1 : ¬n % 4 = 3 := by omega
  unfold scAt0_1
  rw [dif_pos h0, dif_neg h1]
  refine (congrFun (deg_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
  refine (degStep_at m c (⟨n, h⟩ : Fin cfg0.N) (k0_pay2 (F := Ideal)) i).trans ?_
  rw [zeroCol_apply]

theorem degAt_next (c : Dev nD) (n : ℕ) (h : n < cfg0.N) (h0 : ¬n % 4 = 0) (d : Vec Ideal S1024x1 .f32) (i : S1024x1.Idx) :
    scAt0_1 m c n h d i = d i + degTerm m c n i := by
  unfold scAt0_1
  rw [dif_neg h0]
  by_cases h1 : n % 4 = 3
  · rw [dif_pos h1]
    refine (congrFun (deg_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) _ d) i).trans ?_
    exact degStep_at m c (⟨n, h⟩ : Fin cfg0.N) d i
  · rw [dif_neg h1]
    refine (congrFun (deg_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) scM0_1 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) _ d) i).trans ?_
    exact degStep_at m c (⟨n, h⟩ : Fin cfg0.N) d i

/-! ## The accumulators after a point: zero plus the contributions so far -/

theorem acc_after (c : Dev nD) (t : Fin cfg0.N) (i : S1024x128.Idx) :
    (outsAt0 m c t.val t.isLt).2.1 i = 0 + ∑ s ∈ Finset.range (t.val % 4 + 1), accTerm m c (4 * (t.val / 4) + s) i := by
  rw [soutsAt0_0_eq m c t]
  exact Pipeline.accAt_add_apply (fun n h => scAt0_0 m c n h (VS0_0.read (Elt Ideal) VS0_0.junk)) (scAt0_0 m c) (fun _ => 0) (accTerm m c)
    (4 * (t.val / 4)) 3
    (fun h i => accAt_first m c _ h (by omega) _ i)
    (fun n h acc i hlo hhi => accAt_next m c n h (by omega) acc i)
    (t.val % 4) (by omega) _ i

theorem deg_after (c : Dev nD) (t : Fin cfg0.N) (i : S1024x1.Idx) :
    (outsAt0 m c t.val t.isLt).2.2 i = 0 + ∑ s ∈ Finset.range (t.val % 4 + 1), degTerm m c (4 * (t.val / 4) + s) i := by
  rw [soutsAt0_1_eq m c t]
  exact Pipeline.accAt_add_apply (fun n h => scAt0_1 m c n h (VS0_1.read (Elt Ideal) VS0_1.junk)) (scAt0_1 m c) (fun _ => 0) (degTerm m c)
    (4 * (t.val / 4)) 3
    (fun h i => degAt_first m c _ h (by omega) _ i)
    (fun n h d i hlo hhi => degAt_next m c n h (by omega) d i)
    (t.val % 4) (by omega) _ i

/-! ## Four blocks of columns are all the columns -/

theorem acc_total (c : Dev nD) (q : ℕ) (r : Fin 1024) (f : Fin 128) :
    ∑ s ∈ Finset.range 4, accTerm m c (4 * q + s) (ix2 r f) = GraphConv.nbrSum (A m c) (X m c) (node (1024 * q + r.val)) f := by
  have hb := GraphConv.sum_blocks (M := EReal) (fun j : Fin 16384 => A m c (ix2 (node (1024 * q + r.val)) j) * X m c (ix2 j f))
    (fun s j' => A m c (ix2 (node (1024 * q + r.val)) (node (4096 * s + j'.val))) * X m c (ix2 (node (4096 * s + j'.val)) f))
    (fun s hs j' => by
      have e : node (4096 * s + j'.val) = (⟨4096 * s + j'.val, by have := j'.isLt; omega⟩ : Fin 16384) :=
        Fin.ext (by show (4096 * s + j'.val) % 16384 = 4096 * s + j'.val; have := j'.isLt; omega)
      rw [e])
  refine Eq.trans ?_ hb.symm
  refine Finset.sum_congr rfl fun s hs => ?_
  have hs' : s < 4 := Finset.mem_range.mp hs
  unfold accTerm
  rw [show (4 * q + s) / 4 = q by omega, show (4 * q + s) % 4 = s by omega]

theorem deg_total (c : Dev nD) (q : ℕ) (r : Fin 1024) (z : Fin 1) :
    ∑ s ∈ Finset.range 4, degTerm m c (4 * q + s) (ix2 r z) = GraphConv.degree (A m c) (node (1024 * q + r.val)) := by
  have hb := GraphConv.sum_blocks (M := EReal) (fun j : Fin 16384 => A m c (ix2 (node (1024 * q + r.val)) j))
    (fun s j' => A m c (ix2 (node (1024 * q + r.val)) (node (4096 * s + j'.val))))
    (fun s hs j' => by
      have e : node (4096 * s + j'.val) = (⟨4096 * s + j'.val, by have := j'.isLt; omega⟩ : Fin 16384) :=
        Fin.ext (by show (4096 * s + j'.val) % 16384 = 4096 * s + j'.val; have := j'.isLt; omega)
      rw [e])
  refine Eq.trans ?_ hb.symm
  refine Finset.sum_congr rfl fun s hs => ?_
  have hs' : s < 4 := Finset.mem_range.mp hs
  unfold degTerm
  rw [show (4 * q + s) / 4 = q by omega, show (4 * q + s) % 4 = s by omega]

/-! ## The output block at a row block's last point -/

/-- At a last point the output block is the epilogue of the two accumulators as this very point leaves them. -/
theorem out_last (c : Dev nD) (t : Fin cfg0.N) (h3 : t.val % 4 = 3) :
    (outsAt0 m c t.val t.isLt).1
      = k0_pay6 (outsAt0 m c t.val t.isLt).2.1 (outsAt0 m c t.val t.isLt).2.2 (iblk m c 2 t)
          (dstRows (grid0.coords t) ((hcond0_1 t).mpr h3) (iblk m c 1 t)) (iblk m c 3 t) := by
  have h0 : ¬t.val % 4 = 0 := by omega
  have hp : t.val - 1 < cfg0.N := Nat.lt_of_le_of_lt (Nat.sub_le _ _) t.isLt
  rw [outsAt0_C m c t h0 h3]
  dsimp only
  refine (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h3) (iblk m c 0 t) (iblk m c 1 t) (iblk m c 2 t) (iblk m c 3 t) (outsAt0 m c (t.val - 1) hp).2.1 (outsAt0 m c (t.val - 1) hp).2.2).trans ?_
  exact congrArg₂ (fun a d => k0_pay6 a d (iblk m c 2 t) (dstRows (grid0.coords t) ((hcond0_1 t).mpr h3) (iblk m c 1 t)) (iblk m c 3 t))
    (acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h3) (iblk m c 0 t) (iblk m c 1 t) (iblk m c 2 t) (iblk m c 3 t) (outsAt0 m c (t.val - 1) hp).2.1 (outsAt0 m c (t.val - 1) hp).2.2).symm
    (deg_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h3) (iblk m c 0 t) (iblk m c 1 t) (iblk m c 2 t) (iblk m c 3 t) (outsAt0 m c (t.val - 1) hp).2.1 (outsAt0 m c (t.val - 1) hp).2.2).symm

/-- … which, entry by entry, is the convolution at node 1024·(t / 4) + r. -/
theorem outBlock_apply (c : Dev nD) (t : Fin cfg0.N) (h3 : t.val % 4 = 3) (r : Fin 1024) (o : Fin 128) :
    (outsAt0 m c t.val t.isLt).1 (ix2 r o) = GraphConv.convAt (A m c) (X m c) (W m c) (B m c) (node (1024 * (t.val / 4) + r.val)) o := by
  rw [out_last m c t h3]
  refine (epilogue_apply _ _ _ _ _ r o).trans ?_
  unfold GraphConv.convAt
  have hk : t.val % 4 + 1 = 4 := by omega
  refine congrArg₂ (· + ·) (Finset.sum_congr rfl fun f _ => ?_) (Finset.sum_congr rfl fun f _ => ?_)
  · refine congrArg₂ (· * ·) (congrArg₂ Ideal.div ?_ ?_) (wtBlock_apply m c t f o)
    · rw [acc_after m c t (ix2 r f), hk, zero_add]
      exact acc_total m c (t.val / 4) r f
    · rw [deg_after m c t (ix2 r (0 : Fin 1)), hk, zero_add]
      exact deg_total m c (t.val / 4) r 0
  · exact congrArg₂ (· * ·) ((dstRows_apply t _ (iblk m c 1 t) r f).trans (featBlock_apply m c t _ f)) (btBlock_apply m c t f o)

end Cert.KernelIdeal.Sums

end
-- ==== Proof.Result.lean ====
/-
  The kernel's result array is the convolution.

  Only the last point of each row block writes the output window back, and what it writes is the convolution at the
  row block's 1024 nodes (Sums.lean). Row block q's last point is 4·q + 3, and node n lies in row block n / 1024, so
  the sixteen written blocks cover the result array: after the run it holds the convolution of the adjacency matrix
  the region found, the features and the two weight matrices.
-/
import proofs.«181237_j39032662786123_2_alg».proof.Proof.Sums
import Idealize.ShloMosaic.Lib.Pipeline.Value

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Result

open Cert.KernelIdeal Cert.KernelIdeal.Gen Cert.KernelIdeal.Value Cert.KernelIdeal.Blocks Cert.KernelIdeal.Sums

variable (m : (ℓ : Loc nD τ sig) → Buf (Elt Ideal) ℓ) (ρ : Dev nD → PrngReg)

/-- The convolution over the arrays the region finds. -/
def result (c : Dev nD) : GraphConv.Feat := GraphConv.conv (A m c) (X m c) (W m c) (B m c)

theorem result_apply (c : Dev nD) (n : Fin 16384) (o : Fin 128) :
    result m c (ix2 n o) = GraphConv.convAt (A m c) (X m c) (W m c) (B m c) n o := rfl

/-- What a last point writes back is its block of the convolution. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  rw [flushed4]
  funext y
  obtain ⟨r, o, rfl⟩ : ∃ (r : Fin 1024) (o : Fin 128), y = ix2 r o := ⟨y 0, y 1, eq_ix2 y⟩
  show (outsAt0 m c t.val t.isLt).1 (ix2 r o) = _
  refine (outBlock_apply m c t h3 r o).trans ?_
  refine Eq.trans ?_ (outWin_read (F := Ideal) (result m c) t r o).symm
  exact (result_apply m c _ o).symm

/-- An index of the result array is in point `t`'s block iff each coordinate is in the block's range. -/
theorem mem_blk (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v22).slice (win0_4.rect t)).set ↔ _
  rw [View.set_slice_whole, Rect.mem_set_unit]
  exact Iff.rfl

/-- Every node's row lies in the block its row block's last point writes. -/
theorem cover (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 64 := N_0
  let t : Fin cfg0.N := ⟨4 * ((i 0).val / 1024) + 3, by rw [hN]; omega⟩
  have ht : t.val = 4 * ((i 0).val / 1024) + 3 := rfl
  refine ⟨t, (flush0_4 t).mpr (by rw [ht]; omega), ?_⟩
  rw [mem_blk]
  intro a
  match a with
  | ⟨0, _⟩ =>
    show win0_4.index t (0 : Fin 2) * 1024 ≤ (i 0).val ∧ (i 0).val < win0_4.index t (0 : Fin 2) * 1024 + 1024
    rw [(idxOut t).1, ht]; omega
  | ⟨1, _⟩ =>
    show win0_4.index t (1 : Fin 2) * 128 ≤ (i 1).val ∧ (i 1).val < win0_4.index t (1 : Fin 2) * 128 + 128
    rw [(idxOut t).2]; omega

/-- So the result array ends holding the convolution. -/
theorem final (c : Dev nD) : (dats m 0 c).arrAt 4 cfg0.N = result m c :=
  (dats m 0 c).arrAt_eq_of_cover 4 (result m c) (fun t hf => flushed_eq m c t hf) cover

/-- The run, read: the result array at the convolution, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Result

end
-- ==== Proof.lean ====
/-
  A degree-normalised graph convolution: a kernel that streams the adjacency matrix in blocks, against the plain
  formula.

  From an edge list both programs build the 16384 × 16384 adjacency matrix A (A r j = 1 when some edge goes from node j
  to node r) and compute, for node features x and weight matrices W, B,

      out r o  =  Σ_f ( (Σ_j A r j · x j f) / (Σ_j A r j) ) · W o f  +  Σ_f x r f · B o f .

  The reference does so with whole-array operations. The kernel walks a 16 × 4 grid: for each block of 1024
  destination nodes it adds up, over four blocks of 4096 source nodes, the partial neighbour sums and the partial
  in-degrees in two accumulators, and at the fourth block divides, applies the two weight matrices and writes the
  block of the result. On the extended reals addition is commutative and associative, a change of float format is
  the identity, and both programs divide by the same function, so the only difference — the inner sums taken in four
  pieces — disappears: the two results are equal for every input, and the precondition is not used.

  The modules: Spec (the formula, and the law that four blocks of columns are all columns), Pieces (what one grid
  point's stores leave), Steps (the body's arithmetic at one entry), Blocks (the input blocks as entries of the
  arrays), Adjacency (both programs build the same matrix), Sums (the accumulators along a row block, and the block
  written at its end), Result (the kernel's result array is the formula), RefValue (so is the reference's).
-/
import proofs.«181237_j39032662786123_2_alg».proof.Defs
import proofs.«181237_j39032662786123_2_alg».proof.Proof.Gen.Kernel
import proofs.«181237_j39032662786123_2_alg».proof.Proof.Gen.Kernel.Skeleton
import proofs.«181237_j39032662786123_2_alg».proof.Proof.Gen.Kernel.Launch
import proofs.«181237_j39032662786123_2_alg».proof.Proof.Gen.Kernel.Points
import proofs.«181237_j39032662786123_2_alg».proof.Proof.Gen.Kernel.Frame
import proofs.«181237_j39032662786123_2_alg».proof.Proof.Gen.KernelIdeal
import proofs.«181237_j39032662786123_2_alg».proof.Proof.Gen.KernelIdeal.Skeleton
import proofs.«181237_j39032662786123_2_alg».proof.Proof.Gen.KernelIdeal.Launch
import proofs.«181237_j39032662786123_2_alg».proof.Proof.Gen.KernelIdeal.Points
import proofs.«181237_j39032662786123_2_alg».proof.Proof.Gen.KernelIdeal.Frame
import proofs.«181237_j39032662786123_2_alg».proof.Proof.Gen.ReferenceIdeal
import proofs.«181237_j39032662786123_2_alg».proof.Proof.Gen.KernelIdeal.Value
import proofs.«181237_j39032662786123_2_alg».proof.Proof.Gen.ReferenceIdeal.Run
import proofs.«181237_j39032662786123_2_alg».proof.Proof.Gen.ReferenceIdeal.Read
import proofs.«181237_j39032662786123_2_alg».proof.Proof.Spec
import proofs.«181237_j39032662786123_2_alg».proof.Proof.Adjacency
import proofs.«181237_j39032662786123_2_alg».proof.Proof.RefValue
import proofs.«181237_j39032662786123_2_alg».proof.Proof.Result
import proofs.«181237_j39032662786123_2_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array and the reference's are the same convolution of arguments that
    agree: the kernel's of the adjacency matrix it built, the reference's of its own, and the two matrices are one. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hA : Cert.KernelIdeal.Sums.A m c
      = Cert.ReferenceIdeal.Read.val_main_v19 (F := Ideal) (m ((c.tc : Thread Cert.KernelIdeal.nD Cert.KernelIdeal.τ).loc Cert.KernelIdeal.main_arg1)) :=
    (Cert.KernelIdeal.Adjacency.V_adj m c).trans (Cert.KernelIdeal.Adjacency.adj_eq_ref _)
  rw [Cert.ReferenceIdeal.Read.val_main_v29_eq, Cert.ReferenceIdeal.RefValue.result_eq_conv,
    (hagree c).1, (hagree c).2.1, (hagree c).2.2.1, (hagree c).2.2.2, ← hA]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
